-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S1024x64 : Shape := ⟨2, ![1024, 64]⟩
abbrev S1024x1024 : Shape := ⟨2, ![1024, 1024]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S131072x1024 .f32) (main_arg1 : FVec F S1024x64 .f32) (main_arg2 : FVec F S1024x64 .f32) (main_arg3 : FVec F S1024x1024 .f32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S131072x1024 : Shape := ⟨2, ![131072, 1024]⟩
abbrev S1024x64 : Shape := ⟨2, ![1024, 64]⟩
abbrev S1024x1024 : Shape := ⟨2, ![1024, 1024]⟩
abbrev S128x8x64 : Shape := ⟨3, ![128, 8, 64]⟩
abbrev S128x8x8 : Shape := ⟨3, ![128, 8, 8]⟩
abbrev S128x8 : Shape := ⟨2, ![128, 8]⟩
abbrev S128x8x1 : Shape := ⟨3, ![128, 8, 1]⟩
abbrev S128x8x1024 : Shape := ⟨3, ![128, 8, 1024]⟩

abbrev nBuf : Space → Nat
  | .hbm => 8
  | .vmem => 7
  | .smem => 0
  | _ => 0

abbrev bufTy : (tb : Table) → Fin (tcTables nBuf tb) → BufTy
  | .hbm, ⟨0, _⟩ => ⟨S131072x1024, .f32⟩
  | .hbm, ⟨1, _⟩ => ⟨S1024x64, .f32⟩
  | .hbm, ⟨2, _⟩ => ⟨S1024x64, .f32⟩
  | .hbm, ⟨3, _⟩ => ⟨S1024x1024, .f32⟩
  | .hbm, ⟨4, _⟩ => ⟨S1024x64, .bf16⟩
  | .hbm, ⟨5, _⟩ => ⟨S1024x64, .bf16⟩
  | .hbm, ⟨6, _⟩ => ⟨S1024x1024, .bf16⟩
  | .hbm, ⟨7, _⟩ => ⟨S131072x1024, .f32⟩
  | .local _ .vmem, ⟨0, _⟩ => ⟨S1024x1024, .f32⟩
  | .local _ .vmem, ⟨1, _⟩ => ⟨S1024x1024, .f32⟩
  | .local _ .vmem, ⟨2, _⟩ => ⟨S1024x64, .bf16⟩
  | .local _ .vmem, ⟨3, _⟩ => ⟨S1024x64, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S1024x1024_S1024x1024 : S1024x1024.ShapeCasts S1024x1024
  shapeCasts_S1024x64_S128x8x64 : S1024x64.ShapeCasts S128x8x64
  reduces_S128x8x8_S128x8 : S128x8x8.Reduces [2] S128x8
  shapeCasts_S128x8_S128x8x1 : S128x8.ShapeCasts S128x8x1
  broadcasts_S128x8x1_S128x8x8 : S128x8x1.Broadcasts S128x8x8
  shapeCasts_S1024x1024_S128x8x1024 : S1024x1024.ShapeCasts S128x8x1024
  shapeCasts_S128x8x1024_S1024x1024 : S128x8x1024.ShapeCasts S1024x1024
  dot_S1024x1024_S1024x64_S1024x64_1_0_0_1_n_n_wf : DotDims.WF S1024x1024 S1024x64 S1024x64 [1] [0] [0] [1] [] []
  dot_S1024x1024_S1024x1024_S1024x1024_1_0_0_1_n_n_wf : DotDims.WF S1024x1024 S1024x1024 S1024x1024 [1] [0] [0] [1] [] []
  dot_S128x8x64_S128x8x64_S128x8x8_2_2_1_1_0_0_wf : DotDims.WF S128x8x64 S128x8x64 S128x8x8 [2] [2] [1] [1] [0] [0]
  dot_S128x8x8_S128x8x1024_S128x8x1024_2_1_1_2_0_0_wf : DotDims.WF S128x8x8 S128x8x1024 S128x8x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S131072x1024.size a
  hwx0_0 : ∀ i : grid0.Coords, EltTy.bits .f32 = 32 ∨ (Rect.block (s := S131072x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .bf16 = 32 ∨ (Rect.block (s := S1024x64) S1024x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .bf16 = 32 ∨ (Rect.block (s := S1024x64) S1024x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S131072x1024.size a
  hwx0_4 : ∀ i : grid0.Coords, EltTy.bits .f32 = 32 ∨ (Rect.block (s := S131072x1024) S1024x1024.size (cc0_transform_4 i) (hinb0_4 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S128x8x64_S128x8x64_S128x8x8_2_2_1_1_0_0 : DotDims S128x8x64 S128x8x64 S128x8x8 where
  lhsContracting := [2]
  rhsContracting := [2]
  lhsNonContracting := [1]
  rhsNonContracting := [1]
  lhsBatch := [0]
  rhsBatch := [0]
  wf := dot_S128x8x64_S128x8x64_S128x8x8_2_2_1_1_0_0_wf
def dot_S128x8x8_S128x8x1024_S128x8x1024_2_1_1_2_0_0 : DotDims S128x8x8 S128x8x1024 S128x8x1024 where
  lhsContracting := [2]
  rhsContracting := [1]
  lhsNonContracting := [1]
  rhsNonContracting := [2]
  lhsBatch := [0]
  rhsBatch := [0]
  wf := dot_S128x8x8_S128x8x1024_S128x8x1024_2_1_1_2_0_0_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x1024 : Shape := ⟨2, ![131072, 1024]⟩
abbrev S1024x64 : Shape := ⟨2, ![1024, 64]⟩
abbrev S1024x1024 : Shape := ⟨2, ![1024, 1024]⟩
abbrev S131072x64 : Shape := ⟨2, ![131072, 64]⟩
abbrev S16384x8x64 : Shape := ⟨3, ![16384, 8, 64]⟩
abbrev S16384x8x1024 : Shape := ⟨3, ![16384, 8, 1024]⟩
abbrev S16384x8x8 : Shape := ⟨3, ![16384, 8, 8]⟩
abbrev S_ : Shape := ⟨0, ![]⟩
abbrev S16384x8 : Shape := ⟨2, ![16384, 8]⟩
abbrev S16384x8x1 : Shape := ⟨3, ![16384, 8, 1]⟩

abbrev nBuf : Space → Nat
  | .hbm => 27
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S1024x64, .f32⟩
  | .hbm, ⟨2, _⟩ => ⟨S1024x64, .f32⟩
  | .hbm, ⟨3, _⟩ => ⟨S1024x1024, .f32⟩
  | .hbm, ⟨4, _⟩ => ⟨S131072x64, .f32⟩
  | .hbm, ⟨5, _⟩ => ⟨S16384x8x64, .f32⟩
  | .hbm, ⟨6, _⟩ => ⟨S131072x64, .f32⟩
  | .hbm, ⟨7, _⟩ => ⟨S16384x8x64, .f32⟩
  | .hbm, ⟨8, _⟩ => ⟨S131072x1024, .f32⟩
  | .hbm, ⟨9, _⟩ => ⟨S16384x8x1024, .f32⟩
  | .hbm, ⟨10, _⟩ => ⟨S16384x8x8, .f32⟩
  | .hbm, ⟨11, _⟩ => ⟨S_, .f32⟩
  | .hbm, ⟨12, _⟩ => ⟨S16384x8, .f32⟩
  | .hbm, ⟨13, _⟩ => ⟨S_, .f32⟩
  | .hbm, ⟨14, _⟩ => ⟨S16384x8, .f32⟩
  | .hbm, ⟨15, _⟩ => ⟨S16384x8, .f32⟩
  | .hbm, ⟨16, _⟩ => ⟨S16384x8x1, .f32⟩
  | .hbm, ⟨17, _⟩ => ⟨S16384x8x8, .f32⟩
  | .hbm, ⟨18, _⟩ => ⟨S16384x8x8, .f32⟩
  | .hbm, ⟨19, _⟩ => ⟨S16384x8x8, .f32⟩
  | .hbm, ⟨20, _⟩ => ⟨S_, .f32⟩
  | .hbm, ⟨21, _⟩ => ⟨S16384x8, .f32⟩
  | .hbm, ⟨22, _⟩ => ⟨S16384x8x1, .f32⟩
  | .hbm, ⟨23, _⟩ => ⟨S16384x8x8, .f32⟩
  | .hbm, ⟨24, _⟩ => ⟨S16384x8x8, .f32⟩
  | .hbm, ⟨25, _⟩ => ⟨S16384x8x1024, .f32⟩
  | .hbm, ⟨26, _⟩ => ⟨S131072x1024, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  shapeCasts_S131072x64_S16384x8x64 : S131072x64.ShapeCasts S16384x8x64
  shapeCasts_S131072x1024_S16384x8x1024 : S131072x1024.ShapeCasts S16384x8x1024
  reducesTo_S16384x8x8_S16384x8_d2 : S16384x8x8.ReducesTo [2] S16384x8
  h_S_ : 0 < S_.numel
  bcast_S_S16384x8 : S_.BroadcastsInDim S16384x8 (![] : Fin 0 → Fin S16384x8.rank)
  bcast_S16384x8_S16384x8x1_0_1 : S16384x8.BroadcastsInDim S16384x8x1 (![0, 1] : Fin 2 → Fin S16384x8x1.rank)
  bcast_S16384x8x1_S16384x8x8_0_1_2 : S16384x8x1.BroadcastsInDim S16384x8x8 (![0, 1, 2] : Fin 3 → Fin S16384x8x8.rank)
  shapeCasts_S16384x8x1024_S131072x1024 : S16384x8x1024.ShapeCasts S131072x1024
  dot_S131072x1024_S1024x64_S131072x64_1_0_0_1_n_n_wf : DotDims.WF S131072x1024 S1024x64 S131072x64 [1] [0] [0] [1] [] []
  dot_S131072x1024_S1024x1024_S131072x1024_1_0_0_1_n_n_wf : DotDims.WF S131072x1024 S1024x1024 S131072x1024 [1] [0] [0] [1] [] []
  dot_S16384x8x64_S16384x8x64_S16384x8x8_2_2_1_1_0_0_wf : DotDims.WF S16384x8x64 S16384x8x64 S16384x8x8 [2] [2] [1] [1] [0] [0]
  dot_S16384x8x8_S16384x8x1024_S16384x8x1024_2_1_1_2_0_0_wf : DotDims.WF S16384x8x8 S16384x8x1024 S16384x8x1024 [2] [1] [1] [2] [0] [0]

variable [Facts₀]

def dot_S131072x1024_S1024x64_S131072x64_1_0_0_1_n_n : DotDims S131072x1024 S1024x64 S131072x64 where
  lhsContracting := [1]
  rhsContracting := [0]
  lhsNonContracting := [0]
  rhsNonContracting := [1]
  lhsBatch := []
  rhsBatch := []
  wf := dot_S131072x1024_S1024x64_S131072x64_1_0_0_1_n_n_wf
def dot_S131072x1024_S1024x1024_S131072x1024_1_0_0_1_n_n : DotDims S131072x1024 S1024x1024 S131072x1024 where
  lhsContracting := [1]
  rhsContracting := [0]
  lhsNonContracting := [0]
  rhsNonContracting := [1]
  lhsBatch := []
  rhsBatch := []
  wf := dot_S131072x1024_S1024x1024_S131072x1024_1_0_0_1_n_n_wf
def dot_S16384x8x64_S16384x8x64_S16384x8x8_2_2_1_1_0_0 : DotDims S16384x8x64 S16384x8x64 S16384x8x8 where
  lhsContracting := [2]
  rhsContracting := [2]
  lhsNonContracting := [1]
  rhsNonContracting := [1]
  lhsBatch := [0]
  rhsBatch := [0]
  wf := dot_S16384x8x64_S16384x8x64_S16384x8x8_2_2_1_1_0_0_wf
def dot_S16384x8x8_S16384x8x1024_S16384x8x1024_2_1_1_2_0_0 : DotDims S16384x8x8 S16384x8x1024 S16384x8x1024 where
  lhsContracting := [2]
  rhsContracting := [1]
  lhsNonContracting := [1]
  rhsNonContracting := [2]
  lhsBatch := [0]
  rhsBatch := [0]
  wf := dot_S16384x8x8_S16384x8x1024_S16384x8x1024_2_1_1_2_0_0_wf

class Facts : Prop extends Facts₀ where

variable [Facts]
-- ==== Proof.Attn.lean ====
/- Attention inside one group of eight consecutive rows, on the extended reals.

   A group is eight rows `x h` (h < 8) of 1024 entries. With weight matrices `wq`, `wk` (1024 × 64) and `wv` (1024 × 1024):
   the queries, keys and values are the rows' products with the weights; the score of row `h` against row `m` is the inner
   product of query `h` and key `m`; row `h`'s scores are shifted by their maximum, exponentiated, and divided by the sum of
   the exponentials; the result row `h` is that weighted combination of the eight value rows. Nothing here depends on where
   the group sits in a larger array: a group is given by the function that names its eight rows. -/
import Idealize.ShloMosaic.PureOps.Ideal
import Idealize.ShloMosaic.Lib.ValueIdx

noncomputable section

namespace Cert.Attn

open Idealize.ShloMosaic Idealize.ShloMosaic.ValueIdx

/-- Row `r` of the group against column `k` of a weight matrix. -/
def proj {n : Nat} (x : Fin 8 → Fin 1024 → EReal) (w : Fin 1024 → Fin n → EReal) (r : Fin 8) (k : Fin n) : EReal :=
  ∑ j : Fin 1024, x r j * w j k

/-- The score of row `h` against row `m`: query `h` times key `m`. -/
def score (x : Fin 8 → Fin 1024 → EReal) (wq wk : Fin 1024 → Fin 64 → EReal) (h m : Fin 8) : EReal :=
  ∑ k : Fin 64, proj x wq h k * proj x wk m k

/-- The largest of row `h`'s eight scores. -/
def top (x : Fin 8 → Fin 1024 → EReal) (wq wk : Fin 1024 → Fin 64 → EReal) (h : Fin 8) : EReal :=
  Finset.univ.sup fun m : Fin 8 => score x wq wk h m

/-- The exponential of a score shifted by its row's maximum. -/
def expo (x : Fin 8 → Fin 1024 → EReal) (wq wk : Fin 1024 → Fin 64 → EReal) (h m : Fin 8) : EReal :=
  Ideal.exp (score x wq wk h m - top x wq wk h)

/-- The sum of row `h`'s eight exponentials. -/
def den (x : Fin 8 → Fin 1024 → EReal) (wq wk : Fin 1024 → Fin 64 → EReal) (h : Fin 8) : EReal :=
  ∑ m : Fin 8, expo x wq wk h m

/-- The weight row `h` gives row `m`. -/
def weight (x : Fin 8 → Fin 1024 → EReal) (wq wk : Fin 1024 → Fin 64 → EReal) (h m : Fin 8) : EReal :=
  Ideal.div (expo x wq wk h m) (den x wq wk h)

/-- Entry `d` of result row `h`: the weighted combination of the eight value rows. -/
def attn (x : Fin 8 → Fin 1024 → EReal) (wq wk : Fin 1024 → Fin 64 → EReal) (wv : Fin 1024 → Fin 1024 → EReal)
    (h : Fin 8) (d : Fin 1024) : EReal :=
  ∑ m : Fin 8, weight x wq wk h m * proj x wv m d

/-- The eight rows `row h` of a two-dimensional array with 1024 columns. -/
def rows {N : Nat} (X : (⟨2, ![N, 1024]⟩ : Shape).Idx → EReal) (row : Fin 8 → Fin N) : Fin 8 → Fin 1024 → EReal :=
  fun h j => X (ix2 (row h) j)

/-- A two-dimensional array as a function of its two coordinates. -/
def mat {a b : Nat} (W : (⟨2, ![a, b]⟩ : Shape).Idx → EReal) : Fin a → Fin b → EReal :=
  fun j k => W (ix2 j k)

/-- Row `h` of group `g` among the 131072 rows of the whole array. -/
def rowG (g : Fin 16384) (h : Fin 8) : Fin 131072 := ⟨g.val * 8 + h.val, by have := g.isLt; have := h.isLt; omega⟩

/-- Row `h` of group `g` among the 1024 rows of one block. -/
def rowB (g : Fin 128) (h : Fin 8) : Fin 1024 := ⟨g.val * 8 + h.val, by have := g.isLt; have := h.isLt; omega⟩

/-- THE RESULT ARRAY: entry (R, d) is entry `d` of row `R mod 8` of the attention of group `R div 8`, the group's rows
    being rows `8 (R div 8) … 8 (R div 8) + 7` of `X`. -/
def G (X : (⟨2, ![131072, 1024]⟩ : Shape).Idx → EReal) (Wq Wk : (⟨2, ![1024, 64]⟩ : Shape).Idx → EReal)
    (Wv : (⟨2, ![1024, 1024]⟩ : Shape).Idx → EReal) : (⟨2, ![131072, 1024]⟩ : Shape).Idx → EReal :=
  fun i => attn (rows X (rowG ⟨(i 0).val / 8, by have := idx2_lt0 i; omega⟩)) (mat Wq) (mat Wk) (mat Wv)
    ⟨(i 0).val % 8, Nat.mod_lt _ (by decide)⟩ (i 1)

end Cert.Attn

end
-- ==== Proof.LibMax.lean ====
/- Maxima over finite index sets in the extended reals: a fold of the maximum from minus infinity is a supremum, a
   reduction with the maximum over one axis of an array is the supremum over that axis's coordinates, and writing one
   constant at a family of positions of an array leaves the constant where a position lands and the array elsewhere. -/
import Idealize.ShloMosaic.PureOps.Ideal.Laws
import Idealize.ShloMosaic.Lib.ValueIdx
import Idealize.ShloMosaic.Lib.Pipeline.Value

noncomputable section

namespace Cert.LibMax

open Idealize.ShloMosaic

/-- The word of minus infinity is the least extended real. -/
theorem ofBits_neg_inf : Ideal.ofBits .f32 0xFF800000#32 = (⊥ : EReal) := by
  simp [Ideal.ofBits, Ideal.ieee]

/-- A fold of the maximum from the least element is the supremum. -/
theorem fold_max_bot {ι : Type} (s : Finset ι) (f : ι → EReal) : s.fold max ⊥ f = s.sup f := by
  classical
  induction s using Finset.induction_on with
  | empty => simp
  | insert a s ha ih => rw [Finset.fold_insert ha, Finset.sup_insert, ih]

/-- A fold of the maximum from any start is the start joined with the supremum. -/
theorem fold_max_eq {ι : Type} (s : Finset ι) (b : EReal) (f : ι → EReal) : s.fold max b f = max b (s.sup f) := by
  classical
  induction s using Finset.induction_on with
  | empty => simp
  | insert a s ha ih => rw [Finset.fold_insert ha, Finset.sup_insert, ih, max_left_comm]

/-- The host's reduction with the maximum over ONE axis, from minus infinity, read at `j`: the supremum over that
    axis's coordinates `k` of the array at `j` with `k` inserted. -/
theorem hostReduce_max_single {s t : Shape} {a : Fin s.rank} (x : FVec Ideal s .f32)
    (h' : s.ReducesTo [a] t) (h : s.Reduces [a] t) (hu : 0 < (⟨0, ![]⟩ : Shape).numel) (j : t.Idx) :
    Host.reduce FloatOps.maximumf x (constant (F := Ideal) (⟨0, ![]⟩ : Shape) .f32 0xFF800000#32) h' hu j
      = Finset.univ.sup (fun k : Fin (s.size a) => x (h.lift j k)) := by
  rw [Host.reduce_eq_fold_single FloatOps.maximumf x _ h' h hu]
  show Finset.fold max (Ideal.ofBits .f32 0xFF800000#32) (x ∘ h.lift j) Finset.univ = _
  rw [ofBits_neg_inf, fold_max_bot]
  rfl

/-- Writing the constant `c` at every position a family of updates lands on (an update that lands nowhere is
    dropped): the result holds `c` where some update lands, and the array elsewhere. -/
theorem scatter_const_apply {s si u : Shape} {w : Nat} {α : Type} (d : ScatterDims s si u) (x : s.Idx → α)
    (idx : IVec si w) (c : α) (i' : s.Idx) :
    Host.scatter d (fun _ b => b) x idx (fun _ => c) i'
      = if ∃ j : u.Idx, d.resultIdx? j idx = some i' then c else x i' := by
  classical
  have key : ∀ (l : List (Fin u.numel)) (y : s.Idx → α),
      (l.foldl (fun r n =>
          match d.resultIdx? (u.rowMajor.symm n) idx with
          | some i => fun i' => if i' = i then (fun (_ : α) (b : α) => b) (r i) ((fun _ => c) (u.rowMajor.symm n)) else r i'
          | none => r) y) i'
        = if ∃ n ∈ l, d.resultIdx? (u.rowMajor.symm n) idx = some i' then c else y i' := by
    intro l
    induction l with
    | nil => intro y; simp
    | cons n l ih =>
      intro y
      rw [List.foldl_cons, ih]
      cases hg : d.resultIdx? (u.rowMajor.symm n) idx with
      | none =>
        simp only [List.mem_cons, exists_eq_or_imp, hg, reduceCtorEq, false_or]
      | some i =>
        simp only [List.mem_cons, exists_eq_or_imp, hg, Option.some.injEq]
        by_cases h1 : ∃ a ∈ l, d.resultIdx? (u.rowMajor.symm a) idx = some i'
        · rw [if_pos h1, if_pos (Or.inr h1)]
        · rw [if_neg h1]
          by_cases h2 : i' = i
          · rw [if_pos h2, if_pos (Or.inl h2.symm)]
          · rw [if_neg h2, if_neg (by rintro (h | h); exacts [h2 h.symm, h1 h])]
  unfold Host.scatter
  refine (key _ _).trans ?_
  refine if_congr ⟨fun ⟨n, _, hn⟩ => ⟨_, hn⟩, fun ⟨j, hj⟩ => ⟨u.rowMajor j, List.mem_finRange _, ?_⟩⟩ rfl rfl
  rw [Equiv.symm_apply_apply]; exact hj

end Cert.LibMax

end
-- ==== Proof.RefValue.lean ====
/- The reference's result, read group by group: each stage of the reference at the coordinates (group, row, column)
   is the corresponding stage of the attention of that group's eight rows. -/
import proofs.«173749_j8546984919496_1_alg».proof.Proof.Gen.ReferenceIdeal.Read
import proofs.«173749_j8546984919496_1_alg».proof.Proof.Attn
import proofs.«173749_j8546984919496_1_alg».proof.Proof.LibMax

noncomputable section

namespace Cert.ReferenceIdeal.RefValue

open Cert.ReferenceIdeal Cert.ReferenceIdeal.Gen Cert.ReferenceIdeal.Read Idealize.ShloMosaic Idealize.ShloMosaic.ValueIdx Cert.Attn

variable (x0 : (⟨S131072x1024, .f32⟩ : BufTy).Contents (Elt Ideal)) (x1 x2 : (⟨S1024x64, .f32⟩ : BufTy).Contents (Elt Ideal))
  (x3 : (⟨S1024x1024, .f32⟩ : BufTy).Contents (Elt Ideal))

/-- The queries: row `h` of group `g` times column `k` of the first weight matrix. -/
theorem q_at (g : Fin 16384) (h : Fin 8) (k : Fin 64) :
    val_main_v1 (F := Ideal) x0 x1 (ix3 g h k) = proj (rows x0 (rowG g)) (mat x1) h k := by
  rw [val_main_v1_apply, val_main_v0_apply]
  refine Finset.sum_congr rfl fun j _ => ?_
  have e1 : lidx_main_v0 (idx_main_v1 (ix3 g h k)) j = ix2 (rowG g h) j := funext fun a => Fin.ext (by
    have := g.isLt; have := h.isLt; have := k.isLt
    match a with
    | ⟨0, _⟩ => show ((g.val * 8 + h.val) * 64 + k.val) / 64 = g.val * 8 + h.val; omega
    | ⟨1, _⟩ => rfl)
  have e2 : ridx_main_v0 (idx_main_v1 (ix3 g h k)) j = ix2 j k := funext fun a => Fin.ext (by
    have := g.isLt; have := h.isLt; have := k.isLt
    match a with
    | ⟨0, _⟩ => rfl
    | ⟨1, _⟩ => show ((g.val * 8 + h.val) * 64 + k.val) % 64 = k.val; omega)
  rw [e1, e2]; rfl

/-- The keys: row `m` of group `g` times column `k` of the second weight matrix. -/
theorem k_at (g : Fin 16384) (m : Fin 8) (k : Fin 64) :
    val_main_v3 (F := Ideal) x0 x2 (ix3 g m k) = proj (rows x0 (rowG g)) (mat x2) m k := by
  rw [val_main_v3_apply, val_main_v2_apply]
  refine Finset.sum_congr rfl fun j _ => ?_
  have e1 : lidx_main_v2 (idx_main_v3 (ix3 g m k)) j = ix2 (rowG g m) j := funext fun a => Fin.ext (by
    have := g.isLt; have := m.isLt; have := k.isLt
    match a with
    | ⟨0, _⟩ => show ((g.val * 8 + m.val) * 64 + k.val) / 64 = g.val * 8 + m.val; omega
    | ⟨1, _⟩ => rfl)
  have e2 : ridx_main_v2 (idx_main_v3 (ix3 g m k)) j = ix2 j k := funext fun a => Fin.ext (by
    have := g.isLt; have := m.isLt; have := k.isLt
    match a with
    | ⟨0, _⟩ => rfl
    | ⟨1, _⟩ => show ((g.val * 8 + m.val) * 64 + k.val) % 64 = k.val; omega)
  rw [e1, e2]; rfl

/-- The values: row `m` of group `g` times column `d` of the third weight matrix. -/
theorem v_at (g : Fin 16384) (m : Fin 8) (d : Fin 1024) :
    val_main_v5 (F := Ideal) x0 x3 (ix3 g m d) = proj (rows x0 (rowG g)) (mat x3) m d := by
  rw [val_main_v5_apply, val_main_v4_apply]
  refine Finset.sum_congr rfl fun j _ => ?_
  have e1 : lidx_main_v4 (idx_main_v5 (ix3 g m d)) j = ix2 (rowG g m) j := funext fun a => Fin.ext (by
    have := g.isLt; have := m.isLt; have := d.isLt
    match a with
    | ⟨0, _⟩ => show ((g.val * 8 + m.val) * 1024 + d.val) / 1024 = g.val * 8 + m.val; omega
    | ⟨1, _⟩ => rfl)
  have e2 : ridx_main_v4 (idx_main_v5 (ix3 g m d)) j = ix2 j d := funext fun a => Fin.ext (by
    have := g.isLt; have := m.isLt; have := d.isLt
    match a with
    | ⟨0, _⟩ => rfl
    | ⟨1, _⟩ => show ((g.val * 8 + m.val) * 1024 + d.val) % 1024 = d.val; omega)
  rw [e1, e2]; rfl

/-- The scores of a group. -/
theorem score_at (g : Fin 16384) (h m : Fin 8) :
    val_main_v6 (F := Ideal) x0 x1 x2 (ix3 g h m) = score (rows x0 (rowG g)) (mat x1) (mat x2) h m := by
  rw [val_main_v6_apply]
  refine Finset.sum_congr rfl fun k _ => ?_
  have e1 : lidx_main_v6 (ix3 g h m) k = ix3 g h k := funext fun a => Fin.ext (by
    match a with | ⟨0, _⟩ => rfl | ⟨1, _⟩ => rfl | ⟨2, _⟩ => rfl)
  have e2 : ridx_main_v6 (ix3 g h m) k = ix3 g m k := funext fun a => Fin.ext (by
    match a with | ⟨0, _⟩ => rfl | ⟨1, _⟩ => rfl | ⟨2, _⟩ => rfl)
  rw [e1, e2, q_at, k_at]

/-- The reduction over the last axis removes it: its witness at these shapes. -/
theorem hred : S16384x8x8.Reduces [2] S16384x8 := by decide

/-- The maximum of a row's scores: the reduction from minus infinity, joined once more with minus infinity. -/
theorem top_at (g : Fin 16384) (h : Fin 8) :
    val_main_v9 (F := Ideal) x0 x1 x2 (ix2 g h) = top (rows x0 (rowG g)) (mat x1) (mat x2) h := by
  rw [val_main_v9_apply, val_main_v8_apply, val_main_cst_0_apply]
  unfold val_main_v7 val_main_cst
  rw [Cert.LibMax.hostReduce_max_single (val_main_v6 (F := Ideal) x0 x1 x2) reducesTo_S16384x8x8_S16384x8_d2 hred h_S_ (ix2 g h)]
  show max (Ideal.ofBits .f32 0xFF800000#32) _ = _
  rw [Cert.LibMax.ofBits_neg_inf, max_eq_right bot_le]
  show (Finset.univ.sup fun m : Fin 8 => val_main_v6 (F := Ideal) x0 x1 x2 (hred.lift (ix2 g h) m)) = _
  unfold top
  refine congrArg _ (funext fun m => ?_)
  have e : hred.lift (ix2 g h) m = ix3 g h m := funext fun a => Fin.ext (by
    match a with | ⟨0, _⟩ => rfl | ⟨1, _⟩ => rfl | ⟨2, _⟩ => rfl)
  rw [e, score_at]

/-- The shifted exponentials. -/
theorem expo_at (g : Fin 16384) (h m : Fin 8) :
    val_main_v13 (F := Ideal) x0 x1 x2 (ix3 g h m) = expo (rows x0 (rowG g)) (mat x1) (mat x2) h m := by
  rw [val_main_v13_apply, val_main_v12_apply, val_main_v11_apply, val_main_v10_apply]
  have e : idx_main_v10 (idx_main_v11 (ix3 g h m)) = ix2 g h := funext fun a => Fin.ext (by
    match a with | ⟨0, _⟩ => rfl | ⟨1, _⟩ => rfl)
  rw [e, top_at, score_at]; rfl

/-- Their sum over a row, from zero. -/
theorem den_at (g : Fin 16384) (h : Fin 8) :
    val_main_v14 (F := Ideal) x0 x1 x2 (ix2 g h) = den (rows x0 (rowG g)) (mat x1) (mat x2) h := by
  rw [val_main_v14_apply, val_main_cst_1_apply]
  show Ideal.ofBits .f32 0x00000000#32 + _ = _
  rw [Ideal.ofBits_zero_f32, zero_add]
  refine Finset.sum_congr rfl fun m _ => ?_
  have e : idx_main_v14 (ix2 g h) m = ix3 g h m := funext fun a => Fin.ext (by
    match a with | ⟨0, _⟩ => rfl | ⟨1, _⟩ => rfl | ⟨2, _⟩ => rfl)
  rw [e, expo_at]

/-- The weights. -/
theorem weight_at (g : Fin 16384) (h m : Fin 8) :
    val_main_v17 (F := Ideal) x0 x1 x2 (ix3 g h m) = weight (rows x0 (rowG g)) (mat x1) (mat x2) h m := by
  rw [val_main_v17_apply, val_main_v16_apply, val_main_v15_apply]
  have e : idx_main_v15 (idx_main_v16 (ix3 g h m)) = ix2 g h := funext fun a => Fin.ext (by
    match a with | ⟨0, _⟩ => rfl | ⟨1, _⟩ => rfl)
  rw [e, den_at, expo_at]; rfl

/-- The weighted combination of a group's value rows. -/
theorem out_at (g : Fin 16384) (h : Fin 8) (d : Fin 1024) :
    val_main_v18 (F := Ideal) x0 x1 x2 x3 (ix3 g h d) = attn (rows x0 (rowG g)) (mat x1) (mat x2) (mat x3) h d := by
  rw [val_main_v18_apply]
  refine Finset.sum_congr rfl fun m _ => ?_
  have e1 : lidx_main_v18 (ix3 g h d) m = ix3 g h m := funext fun a => Fin.ext (by
    match a with | ⟨0, _⟩ => rfl | ⟨1, _⟩ => rfl | ⟨2, _⟩ => rfl)
  have e2 : ridx_main_v18 (ix3 g h d) m = ix3 g m d := funext fun a => Fin.ext (by
    match a with | ⟨0, _⟩ => rfl | ⟨1, _⟩ => rfl | ⟨2, _⟩ => rfl)
  rw [e1, e2, weight_at, v_at]

/-- THE REFERENCE'S RESULT is the attention of each group of eight consecutive rows, laid back row by row. -/
theorem result_eq : val_main_v19 (F := Ideal) x0 x1 x2 x3 = G x0 x1 x2 x3 := by
  funext i
  rw [val_main_v19_apply]
  have hi0 := idx2_lt0 i
  have hi1 := idx2_lt1 i
  have e : idx_main_v19 i = ix3 (⟨(i 0).val / 8, by omega⟩ : Fin 16384) (⟨(i 0).val % 8, Nat.mod_lt _ (by decide)⟩ : Fin 8) (⟨(i 1).val, hi1⟩ : Fin 1024) :=
    funext fun a => Fin.ext (by
      match a with
      | ⟨0, _⟩ => show ((i 0).val * 1024 + (i 1).val) / 8192 = (i 0).val / 8; omega
      | ⟨1, _⟩ => show ((i 0).val * 1024 + (i 1).val) / 1024 % 8 = (i 0).val % 8; omega
      | ⟨2, _⟩ => show ((i 0).val * 1024 + (i 1).val) % 1024 = (i 1).val; omega)
  rw [e, out_at]; rfl

end Cert.ReferenceIdeal.RefValue

end
-- ==== Proof.KerBody.lean ====
/- The kernel body's stored value, stage by stage. One grid point holds 1024 consecutive rows, 128 groups of eight; each
   stage of the body, read at the coordinates (group, row, column) inside the block, is the corresponding stage of the
   attention of that group's eight rows of the block. -/
import proofs.«173749_j8546984919496_1_alg».proof.Proof.Gen.KernelIdeal.Skeleton
import proofs.«173749_j8546984919496_1_alg».proof.Proof.Attn
import proofs.«173749_j8546984919496_1_alg».proof.Proof.LibMax
import Idealize.ShloMosaic.Lib.Pipeline.Value
import Idealize.ShloMosaic.Lib.ValueIdx
import Idealize.ShloMosaic.PureOps.Ideal.Laws

noncomputable section

namespace Cert.KernelIdeal.KerValue

open Cert.KernelIdeal Cert.KernelIdeal.Gen Idealize.ShloMosaic Idealize.ShloMosaic.ValueIdx Cert.Attn

/-! ## The body's stages, named -/

variable (b0 : Vec Ideal S1024x1024 .f32) (b1 b2 : Vec Ideal S1024x64 .bf16) (b3 : Vec Ideal S1024x1024 .bf16)

/-- The block's rows times a 1024 × 64 weight block. -/
def kmmA (w : Vec Ideal S1024x64 .bf16) : FVec Ideal S1024x64 .f32 :=
  matmul dot_S1024x1024_S1024x64_S1024x64_1_0_0_1_n_n none
    (truncf .bf16 b0 bitsLt_bf16_f32 : FVec Ideal S1024x1024 .bf16)
    (shapeCast S1024x64 w shapeCasts_S1024x64_S1024x64 : FVec Ideal S1024x64 .bf16)
    (constant S1024x64 .f32 0x00000000#32 : FVec Ideal S1024x64 .f32)

/-- … regrouped as (group, row, column). -/
def kproj (w : Vec Ideal S1024x64 .bf16) : FVec Ideal S128x8x64 .bf16 :=
  truncf .bf16 (shapeCast S128x8x64 (kmmA b0 w) shapeCasts_S1024x64_S128x8x64 : FVec Ideal S128x8x64 .f32) bitsLt_bf16_f32

/-- The block's rows times the 1024 × 1024 weight block. -/
def kmmV : FVec Ideal S1024x1024 .f32 :=
  matmul dot_S1024x1024_S1024x1024_S1024x1024_1_0_0_1_n_n none
    (truncf .bf16 b0 bitsLt_bf16_f32 : FVec Ideal S1024x1024 .bf16)
    (shapeCast S1024x1024 b3 shapeCasts_S1024x1024_S1024x1024 : FVec Ideal S1024x1024 .bf16)
    (constant S1024x1024 .f32 0x00000000#32 : FVec Ideal S1024x1024 .f32)

/-- … regrouped. -/
def kval : FVec Ideal S128x8x1024 .bf16 :=
  truncf .bf16 (shapeCast S128x8x1024 (kmmV b0 b3) shapeCasts_S1024x1024_S128x8x1024 : FVec Ideal S128x8x1024 .f32) bitsLt_bf16_f32

/-- The scores, one 8 × 8 matrix per group. -/
def kscore : FVec Ideal S128x8x8 .f32 :=
  matmul dot_S128x8x64_S128x8x64_S128x8x8_2_2_1_1_0_0 none (kproj b0 b1) (kproj b0 b2)
    (constant S128x8x8 .f32 0x00000000#32 : FVec Ideal S128x8x8 .f32)

/-- Each row's largest score, from minus infinity. -/
def kmax : FVec Ideal S128x8 .f32 :=
  multiReduction .maximumf [2] S128x8 (kscore b0 b1 b2) 0xFF800000#32 reduces_S128x8x8_S128x8 (.inl rfl) rfl

/-- … joined once more with minus infinity. -/
def ktop : FVec Ideal S128x8 .f32 :=
  maximumf (broadcast S128x8 (Scalar.ofBits .f32 0xFF800000#32 : Ideal .f32) : FVec Ideal S128x8 .f32) (kmax b0 b1 b2)

/-- The shifted exponentials. -/
def kexpo : FVec Ideal S128x8x8 .f32 :=
  exp (subf (kscore b0 b1 b2)
    (broadcastTo S128x8x8 (shapeCast S128x8x1 (ktop b0 b1 b2) shapeCasts_S128x8_S128x8x1 : FVec Ideal S128x8x1 .f32)
      broadcasts_S128x8x1_S128x8x8 : FVec Ideal S128x8x8 .f32) : FVec Ideal S128x8x8 .f32)

/-- Their sums over each row. -/
def kden : FVec Ideal S128x8 .f32 :=
  multiReduction .add [2] S128x8 (kexpo b0 b1 b2) 0x00000000#32 reduces_S128x8x8_S128x8 (.inl rfl) rfl

/-- The weights. -/
def kweight : FVec Ideal S128x8x8 .bf16 :=
  truncf .bf16 (divf (kexpo b0 b1 b2)
    (broadcastTo S128x8x8 (shapeCast S128x8x1 (kden b0 b1 b2) shapeCasts_S128x8_S128x8x1 : FVec Ideal S128x8x1 .f32)
      broadcasts_S128x8x1_S128x8x8 : FVec Ideal S128x8x8 .f32) : FVec Ideal S128x8x8 .f32) bitsLt_bf16_f32

/-- Each group's weights times its value rows. -/
def kmmO : FVec Ideal S128x8x1024 .f32 :=
  matmul dot_S128x8x8_S128x8x1024_S128x8x1024_2_1_1_2_0_0 none (kweight b0 b1 b2) (kval b0 b3)
    (constant S128x8x1024 .f32 0x00000000#32 : FVec Ideal S128x8x1024 .f32)

/-- The stored block: that, laid back as 1024 rows. -/
def kout : FVec Ideal S1024x1024 .f32 :=
  shapeCast S1024x1024 (kmmO b0 b1 b2 b3) shapeCasts_S128x8x1024_S1024x1024

/-- The body's one payload is these stages composed. -/
theorem pay_eq : k0_pay1 (F := Ideal) b0 b1 b2 b3 = kout b0 b1 b2 b3 := rfl

end Cert.KernelIdeal.KerValue

end
-- ==== Proof.KerDots.lean ====
/- The body's four matrix products read at an index: each entry is the plain sum, over the one contracted axis, of the
   products of the operands' entries (a product into a zero accumulator has nothing else in it). The two products of the
   block's rows with a weight block contract the 1024 columns; the two per-group products carry the group as a batch
   axis and contract the 64 key entries, respectively the 8 rows of the group. -/
import proofs.«173749_j8546984919496_1_alg».proof.Proof.Gen.KernelIdeal
import Idealize.ShloMosaic.Lib.ValueIdx
import Idealize.ShloMosaic.PureOps.Ideal.Laws

noncomputable section

namespace Cert.KernelIdeal.KerDots

open Cert.KernelIdeal Cert.KernelIdeal.Gen Idealize.ShloMosaic Idealize.ShloMosaic.ValueIdx

/-! ## Rows times a weight block: S1024x1024 × S1024x64 -/

theorem mmA_l0 (i : S1024x64.Idx) (q : dot_S1024x1024_S1024x64_S1024x64_1_0_0_1_n_n.contr.Idx) : (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem mmA_l1 (i : S1024x64.Idx) (q : dot_S1024x1024_S1024x64_S1024x64_1_0_0_1_n_n.contr.Idx) : (dot_S1024x1024_S1024x64_S1024x64_1_0_0_1_n_n.lhsIdx i q 1).val = (q ⟨0, by decide⟩).val :=
  dot_S1024x1024_S1024x64_S1024x64_1_0_0_1_n_n.lhsIdx_val_of_single rfl i q
theorem mmA_r0 (i : S1024x64.Idx) (q : dot_S1024x1024_S1024x64_S1024x64_1_0_0_1_n_n.contr.Idx) : (dot_S1024x1024_S1024x64_S1024x64_1_0_0_1_n_n.rhsIdx i q 0).val = (q ⟨0, by decide⟩).val :=
  dot_S1024x1024_S1024x64_S1024x64_1_0_0_1_n_n.rhsIdx_val_of_single rfl i q
theorem mmA_r1 (i : S1024x64.Idx) (q : dot_S1024x1024_S1024x64_S1024x64_1_0_0_1_n_n.contr.Idx) : (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- Entry (a, c) of the product is the sum over the 1024 columns `j` of left (a, j) times right (j, c). -/
theorem mmA_apply (l : FVec Ideal S1024x1024 .bf16) (r : FVec Ideal S1024x64 .bf16) (i : S1024x64.Idx) :
    matmul dot_S1024x1024_S1024x64_S1024x64_1_0_0_1_n_n none l r (constant S1024x64 .f32 0x00000000#32 : FVec Ideal S1024x64 .f32) i
      = ∑ j : Fin 1024, l (ix2 (i 0) j) * r (ix2 j (i 1)) := by
  simp only [matmul]
  rw [Ideal.matmul_constant_zero_apply, ← Equiv.sum_comp (contrEquiv1 dot_S1024x1024_S1024x64_S1024x64_1_0_0_1_n_n 1024 rfl rfl).symm]
  refine Finset.sum_congr rfl fun j _ => ?_
  have hj := contrEquiv1_symm_val dot_S1024x1024_S1024x64_S1024x64_1_0_0_1_n_n 1024 rfl rfl j
  have el : dot_S1024x1024_S1024x64_S1024x64_1_0_0_1_n_n.lhsIdx i ((contrEquiv1 dot_S1024x1024_S1024x64_S1024x64_1_0_0_1_n_n 1024 rfl rfl).symm j) = ix2 (i 0) j := funext fun a => Fin.ext (by
    match a with
    | ⟨0, _⟩ => exact mmA_l0 _ _
    | ⟨1, _⟩ => exact (mmA_l1 _ _).trans hj)
  have er : dot_S1024x1024_S1024x64_S1024x64_1_0_0_1_n_n.rhsIdx i ((contrEquiv1 dot_S1024x1024_S1024x64_S1024x64_1_0_0_1_n_n 1024 rfl rfl).symm j) = ix2 j (i 1) := funext fun a => Fin.ext (by
    match a with
    | ⟨0, _⟩ => exact (mmA_r0 _ _).trans hj
    | ⟨1, _⟩ => exact mmA_r1 _ _)
  rw [el, er]; rfl

/-! ## Rows times a weight block: S1024x1024 × S1024x1024 -/

theorem mmV_l0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem mmV_l1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem mmV_r0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem mmV_r1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Entry (a, c) of the product is the sum over the 1024 columns `j` of left (a, j) times right (j, c). -/
theorem mmV_apply (l : FVec Ideal S1024x1024 .bf16) (r : FVec Ideal S1024x1024 .bf16) (i : S1024x1024.Idx) :
    matmul dot_S1024x1024_S1024x1024_S1024x1024_1_0_0_1_n_n none l r (constant S1024x1024 .f32 0x00000000#32 : FVec Ideal S1024x1024 .f32) i
      = ∑ j : Fin 1024, l (ix2 (i 0) j) * r (ix2 j (i 1)) := by
  simp only [matmul]
  rw [Ideal.matmul_constant_zero_apply, ← Equiv.sum_comp (contrEquiv1 dot_S1024x1024_S1024x1024_S1024x1024_1_0_0_1_n_n 1024 rfl rfl).symm]
  refine Finset.sum_congr rfl fun j _ => ?_
  have hj := contrEquiv1_symm_val dot_S1024x1024_S1024x1024_S1024x1024_1_0_0_1_n_n 1024 rfl rfl j
  have el : dot_S1024x1024_S1024x1024_S1024x1024_1_0_0_1_n_n.lhsIdx i ((contrEquiv1 dot_S1024x1024_S1024x1024_S1024x1024_1_0_0_1_n_n 1024 rfl rfl).symm j) = ix2 (i 0) j := funext fun a => Fin.ext (by
    match a with
    | ⟨0, _⟩ => exact mmV_l0 _ _
    | ⟨1, _⟩ => exact (mmV_l1 _ _).trans hj)
  have er : dot_S1024x1024_S1024x1024_S1024x1024_1_0_0_1_n_n.rhsIdx i ((contrEquiv1 dot_S1024x1024_S1024x1024_S1024x1024_1_0_0_1_n_n 1024 rfl rfl).symm j) = ix2 j (i 1) := funext fun a => Fin.ext (by
    match a with
    | ⟨0, _⟩ => exact (mmV_r0 _ _).trans hj
    | ⟨1, _⟩ => exact mmV_r1 _ _)
  rw [el, er]; rfl

/-! ## Queries times keys inside a group -/

theorem mmS_l0 (i : S128x8x8.Idx) (q : dot_S128x8x64_S128x8x64_S128x8x8_2_2_1_1_0_0.contr.Idx) : (dot_S128x8x64_S128x8x64_S128x8x8_2_2_1_1_0_0.lhsIdx i q 0).val = (i 0).val := by
  unfold DotDims.lhsIdx
  rw [dif_pos (show (0 : Fin S128x8x64.rank) ∈ dot_S128x8x64_S128x8x64_S128x8x8_2_2_1_1_0_0.lhsBatch by decide)]
  rfl
theorem mmS_l1 (i : S128x8x8.Idx) (q : dot_S128x8x64_S128x8x64_S128x8x8_2_2_1_1_0_0.contr.Idx) : (dot_S128x8x64_S128x8x64_S128x8x8_2_2_1_1_0_0.lhsIdx i q 1).val = (i 1).val := by
  unfold DotDims.lhsIdx
  rw [dif_neg (show ¬(1 : Fin S128x8x64.rank) ∈ dot_S128x8x64_S128x8x64_S128x8x8_2_2_1_1_0_0.lhsBatch by decide), dif_pos (show (1 : Fin S128x8x64.rank) ∈ dot_S128x8x64_S128x8x64_S128x8x8_2_2_1_1_0_0.lhsNonContracting by decide)]
  rfl
theorem mmS_l2 (i : S128x8x8.Idx) (q : dot_S128x8x64_S128x8x64_S128x8x8_2_2_1_1_0_0.contr.Idx) : (dot_S128x8x64_S128x8x64_S128x8x8_2_2_1_1_0_0.lhsIdx i q 2).val = (q ⟨0, by decide⟩).val :=
  dot_S128x8x64_S128x8x64_S128x8x8_2_2_1_1_0_0.lhsIdx_val_of_single rfl i q
theorem mmS_r0 (i : S128x8x8.Idx) (q : dot_S128x8x64_S128x8x64_S128x8x8_2_2_1_1_0_0.contr.Idx) : (dot_S128x8x64_S128x8x64_S128x8x8_2_2_1_1_0_0.rhsIdx i q 0).val = (i 0).val := by
  unfold DotDims.rhsIdx
  rw [dif_pos (show (0 : Fin S128x8x64.rank) ∈ dot_S128x8x64_S128x8x64_S128x8x8_2_2_1_1_0_0.rhsBatch by decide)]
  rfl
theorem mmS_r1 (i : S128x8x8.Idx) (q : dot_S128x8x64_S128x8x64_S128x8x8_2_2_1_1_0_0.contr.Idx) : (dot_S128x8x64_S128x8x64_S128x8x8_2_2_1_1_0_0.rhsIdx i q 1).val = (i 2).val := by
  unfold DotDims.rhsIdx
  rw [dif_neg (show ¬(1 : Fin S128x8x64.rank) ∈ dot_S128x8x64_S128x8x64_S128x8x8_2_2_1_1_0_0.rhsBatch by decide), dif_pos (show (1 : Fin S128x8x64.rank) ∈ dot_S128x8x64_S128x8x64_S128x8x8_2_2_1_1_0_0.rhsNonContracting by decide)]
  rfl
theorem mmS_r2 (i : S128x8x8.Idx) (q : dot_S128x8x64_S128x8x64_S128x8x8_2_2_1_1_0_0.contr.Idx) : (dot_S128x8x64_S128x8x64_S128x8x8_2_2_1_1_0_0.rhsIdx i q 2).val = (q ⟨0, by decide⟩).val :=
  dot_S128x8x64_S128x8x64_S128x8x8_2_2_1_1_0_0.rhsIdx_val_of_single rfl i q

/-- Entry (g, h, m) is the sum over the 64 entries `k` of left (g, h, k) times right (g, m, k). -/
theorem mmS_apply (l r : FVec Ideal S128x8x64 .bf16) (i : S128x8x8.Idx) :
    matmul dot_S128x8x64_S128x8x64_S128x8x8_2_2_1_1_0_0 none l r (constant S128x8x8 .f32 0x00000000#32 : FVec Ideal S128x8x8 .f32) i
      = ∑ k : Fin 64, l (ix3 (i 0) (i 1) k) * r (ix3 (i 0) (i 2) k) := by
  simp only [matmul]
  rw [Ideal.matmul_constant_zero_apply, ← Equiv.sum_comp (contrEquiv1 dot_S128x8x64_S128x8x64_S128x8x8_2_2_1_1_0_0 64 rfl rfl).symm]
  refine Finset.sum_congr rfl fun k _ => ?_
  have hk := contrEquiv1_symm_val dot_S128x8x64_S128x8x64_S128x8x8_2_2_1_1_0_0 64 rfl rfl k
  have el : dot_S128x8x64_S128x8x64_S128x8x8_2_2_1_1_0_0.lhsIdx i ((contrEquiv1 dot_S128x8x64_S128x8x64_S128x8x8_2_2_1_1_0_0 64 rfl rfl).symm k) = ix3 (i 0) (i 1) k := funext fun a => Fin.ext (by
    match a with
    | ⟨0, _⟩ => exact mmS_l0 _ _
    | ⟨1, _⟩ => exact mmS_l1 _ _
    | ⟨2, _⟩ => exact (mmS_l2 _ _).trans hk)
  have er : dot_S128x8x64_S128x8x64_S128x8x8_2_2_1_1_0_0.rhsIdx i ((contrEquiv1 dot_S128x8x64_S128x8x64_S128x8x8_2_2_1_1_0_0 64 rfl rfl).symm k) = ix3 (i 0) (i 2) k := funext fun a => Fin.ext (by
    match a with
    | ⟨0, _⟩ => exact mmS_r0 _ _
    | ⟨1, _⟩ => exact mmS_r1 _ _
    | ⟨2, _⟩ => exact (mmS_r2 _ _).trans hk)
  rw [el, er]; rfl

/-! ## Weights times value rows inside a group -/

theorem mmO_l0 (i : S128x8x1024.Idx) (q : dot_S128x8x8_S128x8x1024_S128x8x1024_2_1_1_2_0_0.contr.Idx) : (dot_S128x8x8_S128x8x1024_S128x8x1024_2_1_1_2_0_0.lhsIdx i q 0).val = (i 0).val := by
  unfold DotDims.lhsIdx
  rw [dif_pos (show (0 : Fin S128x8x8.rank) ∈ dot_S128x8x8_S128x8x1024_S128x8x1024_2_1_1_2_0_0.lhsBatch by decide)]
  rfl
theorem mmO_l1 (i : S128x8x1024.Idx) (q : dot_S128x8x8_S128x8x1024_S128x8x1024_2_1_1_2_0_0.contr.Idx) : (dot_S128x8x8_S128x8x1024_S128x8x1024_2_1_1_2_0_0.lhsIdx i q 1).val = (i 1).val := by
  unfold DotDims.lhsIdx
  rw [dif_neg (show ¬(1 : Fin S128x8x8.rank) ∈ dot_S128x8x8_S128x8x1024_S128x8x1024_2_1_1_2_0_0.lhsBatch by decide), dif_pos (show (1 : Fin S128x8x8.rank) ∈ dot_S128x8x8_S128x8x1024_S128x8x1024_2_1_1_2_0_0.lhsNonContracting by decide)]
  rfl
theorem mmO_l2 (i : S128x8x1024.Idx) (q : dot_S128x8x8_S128x8x1024_S128x8x1024_2_1_1_2_0_0.contr.Idx) : (dot_S128x8x8_S128x8x1024_S128x8x1024_2_1_1_2_0_0.lhsIdx i q 2).val = (q ⟨0, by decide⟩).val :=
  dot_S128x8x8_S128x8x1024_S128x8x1024_2_1_1_2_0_0.lhsIdx_val_of_single rfl i q
theorem mmO_r0 (i : S128x8x1024.Idx) (q : dot_S128x8x8_S128x8x1024_S128x8x1024_2_1_1_2_0_0.contr.Idx) : (dot_S128x8x8_S128x8x1024_S128x8x1024_2_1_1_2_0_0.rhsIdx i q 0).val = (i 0).val := by
  unfold DotDims.rhsIdx
  rw [dif_pos (show (0 : Fin S128x8x1024.rank) ∈ dot_S128x8x8_S128x8x1024_S128x8x1024_2_1_1_2_0_0.rhsBatch by decide)]
  rfl
theorem mmO_r1 (i : S128x8x1024.Idx) (q : dot_S128x8x8_S128x8x1024_S128x8x1024_2_1_1_2_0_0.contr.Idx) : (dot_S128x8x8_S128x8x1024_S128x8x1024_2_1_1_2_0_0.rhsIdx i q 1).val = (q ⟨0, by decide⟩).val :=
  dot_S128x8x8_S128x8x1024_S128x8x1024_2_1_1_2_0_0.rhsIdx_val_of_single rfl i q
theorem mmO_r2 (i : S128x8x1024.Idx) (q : dot_S128x8x8_S128x8x1024_S128x8x1024_2_1_1_2_0_0.contr.Idx) : (dot_S128x8x8_S128x8x1024_S128x8x1024_2_1_1_2_0_0.rhsIdx i q 2).val = (i 2).val := by
  unfold DotDims.rhsIdx
  rw [dif_neg (show ¬(2 : Fin S128x8x1024.rank) ∈ dot_S128x8x8_S128x8x1024_S128x8x1024_2_1_1_2_0_0.rhsBatch by decide), dif_pos (show (2 : Fin S128x8x1024.rank) ∈ dot_S128x8x8_S128x8x1024_S128x8x1024_2_1_1_2_0_0.rhsNonContracting by decide)]
  rfl

/-- Entry (g, h, c) is the sum over the 8 rows `m` of the group of left (g, h, m) times right (g, m, c). -/
theorem mmO_apply (l : FVec Ideal S128x8x8 .bf16) (r : FVec Ideal S128x8x1024 .bf16) (i : S128x8x1024.Idx) :
    matmul dot_S128x8x8_S128x8x1024_S128x8x1024_2_1_1_2_0_0 none l r (constant S128x8x1024 .f32 0x00000000#32 : FVec Ideal S128x8x1024 .f32) i
      = ∑ m : Fin 8, l (ix3 (i 0) (i 1) m) * r (ix3 (i 0) m (i 2)) := by
  simp only [matmul]
  rw [Ideal.matmul_constant_zero_apply, ← Equiv.sum_comp (contrEquiv1 dot_S128x8x8_S128x8x1024_S128x8x1024_2_1_1_2_0_0 8 rfl rfl).symm]
  refine Finset.sum_congr rfl fun m _ => ?_
  have hm := contrEquiv1_symm_val dot_S128x8x8_S128x8x1024_S128x8x1024_2_1_1_2_0_0 8 rfl rfl m
  have el : dot_S128x8x8_S128x8x1024_S128x8x1024_2_1_1_2_0_0.lhsIdx i ((contrEquiv1 dot_S128x8x8_S128x8x1024_S128x8x1024_2_1_1_2_0_0 8 rfl rfl).symm m) = ix3 (i 0) (i 1) m := funext fun a => Fin.ext (by
    match a with
    | ⟨0, _⟩ => exact mmO_l0 _ _
    | ⟨1, _⟩ => exact mmO_l1 _ _
    | ⟨2, _⟩ => exact (mmO_l2 _ _).trans hm)
  have er : dot_S128x8x8_S128x8x1024_S128x8x1024_2_1_1_2_0_0.rhsIdx i ((contrEquiv1 dot_S128x8x8_S128x8x1024_S128x8x1024_2_1_1_2_0_0 8 rfl rfl).symm m) = ix3 (i 0) m (i 2) := funext fun a => Fin.ext (by
    match a with
    | ⟨0, _⟩ => exact mmO_r0 _ _
    | ⟨1, _⟩ => exact (mmO_r1 _ _).trans hm
    | ⟨2, _⟩ => exact mmO_r2 _ _)
  rw [el, er]; rfl

end Cert.KernelIdeal.KerDots

end
-- ==== Proof.KerValue.lean ====
/- The kernel body's stages read at the coordinates (group, row, column) inside one block of 1024 rows: each is the
   corresponding stage of the attention of that group's eight rows of the block; so the stored block, at row `r` and
   column `d`, is entry `d` of row `r mod 8` of the attention of the block's group `r div 8`. -/
import proofs.«173749_j8546984919496_1_alg».proof.Proof.KerBody
import proofs.«173749_j8546984919496_1_alg».proof.Proof.KerDots

noncomputable section

namespace Cert.KernelIdeal.KerValue

open Cert.KernelIdeal Cert.KernelIdeal.Gen Cert.KernelIdeal.KerDots Idealize.ShloMosaic Idealize.ShloMosaic.ValueIdx Cert.Attn

variable (b0 : Vec Ideal S1024x1024 .f32) (b1 b2 : Vec Ideal S1024x64 .bf16) (b3 : Vec Ideal S1024x1024 .bf16)

/-- The queries (or keys): row `h` of group `g` of the block times column `k` of the weight block. -/
theorem kproj_at (w : Vec Ideal S1024x64 .bf16) (g : Fin 128) (h : Fin 8) (k : Fin 64) :
    kproj b0 w (ix3 g h k) = proj (rows b0 (rowB g)) (mat w) h k := by
  unfold kproj
  show (shapeCast S128x8x64 (kmmA b0 w) shapeCasts_S1024x64_S128x8x64 : FVec Ideal S128x8x64 .f32) (ix3 g h k) = _
  rw [shapeCast_apply (kmmA b0 w) shapeCasts_S1024x64_S128x8x64 (ix3 g h k) (ix2 (rowB g h) k)
    (by rewrite [Shape.rowMajor_val_two, Shape.rowMajor_val_three]; rfl)]
  unfold kmmA
  rw [mmA_apply]
  refine Finset.sum_congr rfl fun j _ => ?_
  rw [shapeCast_self]; rfl

/-- The values: row `m` of group `g` of the block times column `d` of the weight block. -/
theorem kval_at (g : Fin 128) (m : Fin 8) (d : Fin 1024) :
    kval b0 b3 (ix3 g m d) = proj (rows b0 (rowB g)) (mat b3) m d := by
  unfold kval
  show (shapeCast S128x8x1024 (kmmV b0 b3) shapeCasts_S1024x1024_S128x8x1024 : FVec Ideal S128x8x1024 .f32) (ix3 g m d) = _
  rw [shapeCast_apply (kmmV b0 b3) shapeCasts_S1024x1024_S128x8x1024 (ix3 g m d) (ix2 (rowB g m) d)
    (by rewrite [Shape.rowMajor_val_two, Shape.rowMajor_val_three]; rfl)]
  unfold kmmV
  rw [mmV_apply]
  refine Finset.sum_congr rfl fun j _ => ?_
  rw [shapeCast_self]; rfl

/-- The scores of a group. -/
theorem kscore_at (g : Fin 128) (h m : Fin 8) :
    kscore b0 b1 b2 (ix3 g h m) = score (rows b0 (rowB g)) (mat b1) (mat b2) h m := by
  unfold kscore
  rw [mmS_apply]
  refine Finset.sum_congr rfl fun k _ => ?_
  show kproj b0 b1 (ix3 g h k) * kproj b0 b2 (ix3 g m k) = _
  rw [kproj_at, kproj_at]

/-- A per-row value, given a trailing unit axis and repeated along it, read at (g, h, m) is the value at (g, h). -/
theorem col_apply (v : FVec Ideal S128x8 .f32) (g : Fin 128) (h m : Fin 8) :
    broadcastTo S128x8x8 (shapeCast S128x8x1 v shapeCasts_S128x8_S128x8x1 : FVec Ideal S128x8x1 .f32) broadcasts_S128x8x1_S128x8x8 (ix3 g h m)
      = v (ix2 g h) := by
  rw [broadcastTo_apply _ broadcasts_S128x8x1_S128x8x8 (ix3 g h m) (ix3 g h (0 : Fin 1)) (fun a => by
    match a with
    | ⟨0, _⟩ => show g.val = if (128 : Nat) = 1 then 0 else g.val; rw [if_neg (by decide)]
    | ⟨1, _⟩ => show h.val = if (8 : Nat) = 1 then 0 else h.val; rw [if_neg (by decide)]
    | ⟨2, _⟩ => show 0 = if (1 : Nat) = 1 then 0 else m.val; rw [if_pos rfl])]
  exact shapeCast_apply v shapeCasts_S128x8_S128x8x1 (ix3 g h (0 : Fin 1)) (ix2 g h)
    (by rewrite [Shape.rowMajor_val_two, Shape.rowMajor_val_three]; show g.val * 8 + h.val = (g.val * 8 + h.val) * 1 + 0; omega)

/-- The maximum of a row's scores: the reduction from minus infinity, joined once more with minus infinity. -/
theorem ktop_at (g : Fin 128) (h : Fin 8) :
    ktop b0 b1 b2 (ix2 g h) = top (rows b0 (rowB g)) (mat b1) (mat b2) h := by
  unfold ktop
  show max (Ideal.ofBits .f32 0xFF800000#32) (kmax b0 b1 b2 (ix2 g h)) = _
  unfold kmax
  refine Eq.trans (congrArg (max (Ideal.ofBits .f32 0xFF800000#32))
    (Ideal.multiReduction_maximumf_single (kscore b0 b1 b2) 0xFF800000#32 reduces_S128x8x8_S128x8 (.inl rfl) rfl (ix2 g h))) ?_
  show max (Ideal.ofBits .f32 0xFF800000#32) (Finset.univ.fold max (Ideal.ofBits .f32 0xFF800000#32)
    (fun m : Fin 8 => kscore b0 b1 b2 (reduces_S128x8x8_S128x8.lift (ix2 g h) m))) = _
  rw [Cert.LibMax.ofBits_neg_inf, Cert.LibMax.fold_max_bot, max_eq_right bot_le]
  unfold top
  refine congrArg _ (funext fun m => ?_)
  have e : reduces_S128x8x8_S128x8.lift (ix2 g h) m = ix3 g h m := funext fun a => Fin.ext (by
    match a with | ⟨0, _⟩ => rfl | ⟨1, _⟩ => rfl | ⟨2, _⟩ => rfl)
  rw [e, kscore_at]

/-- The shifted exponentials. -/
theorem kexpo_at (g : Fin 128) (h m : Fin 8) :
    kexpo b0 b1 b2 (ix3 g h m) = expo (rows b0 (rowB g)) (mat b1) (mat b2) h m := by
  unfold kexpo
  show Ideal.exp (kscore b0 b1 b2 (ix3 g h m) - broadcastTo S128x8x8
    (shapeCast S128x8x1 (ktop b0 b1 b2) shapeCasts_S128x8_S128x8x1 : FVec Ideal S128x8x1 .f32) broadcasts_S128x8x1_S128x8x8 (ix3 g h m)) = _
  rw [col_apply, kscore_at, ktop_at]; rfl

/-- Their sum over a row, from zero. -/
theorem kden_at (g : Fin 128) (h : Fin 8) :
    kden b0 b1 b2 (ix2 g h) = den (rows b0 (rowB g)) (mat b1) (mat b2) h := by
  unfold kden
  refine (Ideal.multiReduction_add_single (kexpo b0 b1 b2) 0x00000000#32 reduces_S128x8x8_S128x8 (.inl rfl) rfl (ix2 g h)).trans ?_
  show (∑ m : Fin 8, kexpo b0 b1 b2 (reduces_S128x8x8_S128x8.lift (ix2 g h) m)) = _
  unfold den
  refine Finset.sum_congr rfl fun m _ => ?_
  have e : reduces_S128x8x8_S128x8.lift (ix2 g h) m = ix3 g h m := funext fun a => Fin.ext (by
    match a with | ⟨0, _⟩ => rfl | ⟨1, _⟩ => rfl | ⟨2, _⟩ => rfl)
  rw [e, kexpo_at]

/-- The weights. -/
theorem kweight_at (g : Fin 128) (h m : Fin 8) :
    kweight b0 b1 b2 (ix3 g h m) = weight (rows b0 (rowB g)) (mat b1) (mat b2) h m := by
  unfold kweight
  show Ideal.div (kexpo b0 b1 b2 (ix3 g h m)) (broadcastTo S128x8x8
    (shapeCast S128x8x1 (kden b0 b1 b2) shapeCasts_S128x8_S128x8x1 : FVec Ideal S128x8x1 .f32) broadcasts_S128x8x1_S128x8x8 (ix3 g h m)) = _
  rw [col_apply, kexpo_at, kden_at]; rfl

/-- THE STORED BLOCK at row `r`, column `d`: the attention of the block's group `r div 8`, row `r mod 8`, entry `d`. -/
theorem kout_at (r d : Fin 1024) :
    kout b0 b1 b2 b3 (ix2 r d)
      = attn (rows b0 (rowB ⟨r.val / 8, by have := r.isLt; omega⟩)) (mat b1) (mat b2) (mat b3) ⟨r.val % 8, Nat.mod_lt _ (by decide)⟩ d := by
  unfold kout
  rw [shapeCast_apply (kmmO b0 b1 b2 b3) shapeCasts_S128x8x1024_S1024x1024 (ix2 r d)
    (ix3 (⟨r.val / 8, by have := r.isLt; omega⟩ : Fin 128) (⟨r.val % 8, Nat.mod_lt _ (by decide)⟩ : Fin 8) d)
    (by rewrite [Shape.rowMajor_val_three, Shape.rowMajor_val_two]
        show (r.val / 8 * 8 + r.val % 8) * 1024 + d.val = r.val * 1024 + d.val
        omega)]
  unfold kmmO
  rw [mmO_apply]
  unfold attn
  refine Finset.sum_congr rfl fun m _ => ?_
  show kweight b0 b1 b2 (ix3 _ _ m) * kval b0 b3 (ix3 _ m d) = _
  rw [kweight_at, kval_at]

end Cert.KernelIdeal.KerValue

end
-- ==== Proof.KerArray.lean ====
/- From blocks to the whole result array. Grid point `t` reads rows `1024 t … 1024 t + 1023` of the input and the three
   weight arrays whole (rounded to the narrower float format by the host first, which changes no value on the extended
   reals), and writes the same rows of the result. A block of 1024 rows is 128 whole groups of eight, and row `r` of the
   block is row `1024 t + r` of the array, whose group is `128 t + r div 8` and whose place in it `r mod 8`: so what
   point `t` writes back is block `t` of the one array `Attn.G` of the argument arrays, and the 128 blocks cover it. -/
import proofs.«173749_j8546984919496_1_alg».proof.Proof.Gen.KernelIdeal.Value
import proofs.«173749_j8546984919496_1_alg».proof.Proof.KerValue
import Idealize.ShloMosaic.Lib.StableHlo.Run

set_option maxRecDepth 16384

noncomputable section

namespace Cert.KernelIdeal.ArrValue

open Cert.KernelIdeal Cert.KernelIdeal.Gen Cert.KernelIdeal.KerValue Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-- The result array as a function of the four argument arrays as launched. -/
def result (c : Dev nD) : S131072x1024.Idx → EReal :=
  G (m ((c : Thread nD τ).loc main_arg0)) (m ((c : Thread nD τ).loc main_arg1)) (m ((c : Thread nD τ).loc main_arg2))
    (m ((c : Thread nD τ).loc main_arg3))

/-- One block of the attention: if a block `b0` holds rows `1024 t …` of `X` and the weight blocks hold the weight arrays,
    the body's stored block at `y` is the result array at the index `i` that `y` sits at. -/
theorem block_eq (X : (⟨2, ![131072, 1024]⟩ : Shape).Idx → EReal) (Wq Wk : (⟨2, ![1024, 64]⟩ : Shape).Idx → EReal)
    (Wv : (⟨2, ![1024, 1024]⟩ : Shape).Idx → EReal)
    (b0 : Vec Ideal S1024x1024 .f32) (b1 b2 : Vec Ideal S1024x64 .bf16) (b3 : Vec Ideal S1024x1024 .bf16)
    (tt : Nat) (ht : tt < 128)
    (h0 : ∀ (r j : Fin 1024), b0 (ix2 r j) = X (ix2 (⟨tt * 1024 + r.val, by have := r.isLt; omega⟩ : Fin 131072) j))
    (h1 : ∀ (j : Fin 1024) (k : Fin 64), b1 (ix2 j k) = Wq (ix2 j k))
    (h2 : ∀ (j : Fin 1024) (k : Fin 64), b2 (ix2 j k) = Wk (ix2 j k))
    (h3 : ∀ (j d : Fin 1024), b3 (ix2 j d) = Wv (ix2 j d))
    (y : S1024x1024.Idx) (i : (⟨2, ![131072, 1024]⟩ : Shape).Idx)
    (hi0 : (i 0).val = tt * 1024 + (y 0).val) (hi1 : (i 1).val = (y 1).val) :
    kout b0 b1 b2 b3 y = G X Wq Wk Wv i := by
  have hy0 : (y 0).val < 1024 := (y 0).isLt
  have hy1 : (y 1).val < 1024 := (y 1).isLt
  have hI0 := idx2_lt0 i
  obtain ⟨r, d, rfl⟩ : ∃ (r d : Fin 1024), y = ix2 r d := ⟨y 0, y 1, eq_ix2 y⟩
  rw [kout_at]
  unfold G
  have hr : (i 0).val = tt * 1024 + r.val := hi0
  have hd : (i 1).val = d.val := hi1
  have e0 : rows b0 (rowB ⟨r.val / 8, by have := r.isLt; omega⟩)
      = rows X (rowG ⟨(i 0).val / 8, by omega⟩) := by
    funext h j
    unfold rows
    rw [h0]
    refine congrArg X (congrArg (fun a => ix2 a j) (Fin.ext ?_))
    have := h.isLt
    show tt * 1024 + (r.val / 8 * 8 + h.val) = (i 0).val / 8 * 8 + h.val
    omega
  have e1 : mat b1 = mat Wq := funext fun j => funext fun k => h1 j k
  have e2 : mat b2 = mat Wk := funext fun j => funext fun k => h2 j k
  have e3 : mat b3 = mat Wv := funext fun j => funext fun k => h3 j k
  have e4 : (⟨r.val % 8, Nat.mod_lt _ (by decide)⟩ : Fin 8) = ⟨(i 0).val % 8, Nat.mod_lt _ (by decide)⟩ := Fin.ext (by
    show r.val % 8 = (i 0).val % 8
    omega)
  have e5 : d = (i 1) := Fin.ext hd.symm
  rw [e0, e1, e2, e3, e4, e5]

theorem hz : (![0, 0] : Fin 2 → Nat) = fun _ => 0 := funext fun a => by fin_cases a <;> rfl

/-- The printed index maps, decided over the 128 grid points: the input's and the result's blocks are block `t` of the
    rows, each weight array is its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The host's change of float format of the first weight array changes no value. -/
theorem V_v0 (c : Dev nD) : (V m c main_v0 : S1024x64.Idx → EReal) = fun i => m ((c : Thread nD τ).loc main_arg1) i := by
  dsimp only [Gen.V, Gen.hostOps0]; after_results; rfl
/-- … of the second. -/
theorem V_v1 (c : Dev nD) : (V m c main_v1 : S1024x64.Idx → EReal) = fun i => m ((c : Thread nD τ).loc main_arg2) i := by
  dsimp only [Gen.V, Gen.hostOps0]; after_results; rfl
/-- … of the third. -/
theorem V_v2 (c : Dev nD) : (V m c main_v2 : S1024x1024.Idx → EReal) = fun i => m ((c : Thread nD τ).loc main_arg3) i := by
  dsimp only [Gen.V, Gen.hostOps0]; after_results; rfl

/-- WHAT POINT `t` WRITES BACK is block `t` of the result array. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S1024x1024) hz, View.ld_unit_zero (S := S1024x64) hz]
  rw [pay_eq]
  obtain ⟨a00, a01, a10, a11, a20, a21, a30, a31, a40, a41⟩ := idx_facts t
  have hN : cfg0.N = 128 := N_0
  have htt : t.val < 128 := by have := t.isLt; omega
  unfold result
  funext y
  show kout (iblk m c 0 t) (iblk m c 1 t) (iblk m c 2 t) (iblk m c 3 t) y = G _ _ _ _ (((cfg0.win 4).blk t).view.emb y)
  refine block_eq _ _ _ _ (iblk m c 0 t) (iblk m c 1 t) (iblk m c 2 t) (iblk m c 3 t) t.val htt ?_ ?_ ?_ ?_ y _ ?_ ?_
  · intro r j
    show V m c main_arg0 (((cfg0.win 0).blk t).view.emb (ix2 r j)) = _
    rw [V_main_arg0]
    refine congrArg _ (funext fun a => Fin.ext ?_)
    match a with
    | ⟨0, _⟩ => show win0_0.index t (0 : Fin 2) * 1024 + 1 * r.val = t.val * 1024 + r.val; rw [a00]; omega
    | ⟨1, _⟩ => show win0_0.index t (1 : Fin 2) * 1024 + 1 * j.val = j.val; rw [a01]; omega
  · intro j k
    show V m c main_v0 (((cfg0.win 1).blk t).view.emb (ix2 j k)) = _
    rw [V_v0]
    refine congrArg _ (funext fun a => Fin.ext ?_)
    match a with
    | ⟨0, _⟩ => show win0_1.index t (0 : Fin 2) * 1024 + 1 * j.val = j.val; rw [a10]; omega
    | ⟨1, _⟩ => show win0_1.index t (1 : Fin 2) * 64 + 1 * k.val = k.val; rw [a11]; omega
  · intro j k
    show V m c main_v1 (((cfg0.win 2).blk t).view.emb (ix2 j k)) = _
    rw [V_v1]
    refine congrArg _ (funext fun a => Fin.ext ?_)
    match a with
    | ⟨0, _⟩ => show win0_2.index t (0 : Fin 2) * 1024 + 1 * j.val = j.val; rw [a20]; omega
    | ⟨1, _⟩ => show win0_2.index t (1 : Fin 2) * 64 + 1 * k.val = k.val; rw [a21]; omega
  · intro j d
    show V m c main_v2 (((cfg0.win 3).blk t).view.emb (ix2 j d)) = _
    rw [V_v2]
    refine congrArg _ (funext fun a => Fin.ext ?_)
    match a with
    | ⟨0, _⟩ => show win0_3.index t (0 : Fin 2) * 1024 + 1 * j.val = j.val; rw [a30]; omega
    | ⟨1, _⟩ => show win0_3.index t (1 : Fin 2) * 1024 + 1 * d.val = d.val; rw [a31]; omega
  · show win0_4.index t (0 : Fin 2) * 1024 + 1 * (y 0).val = t.val * 1024 + (y 0).val
    rw [a40]; omega
  · show win0_4.index t (1 : Fin 2) * 1024 + 1 * (y 1).val = (y 1).val
    rw [a41]; omega

/-- An index of the array is in point `t`'s block iff each coordinate is in the block's range on its axis. -/
theorem mem_blk (t : Fin cfg0.N) (i : S131072x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v3).slice (win0_4.rect t)).set ↔ _
  rw [View.set_slice_whole, Rect.mem_set_unit]
  exact Iff.rfl

/-- Every index of the result array is in the block of the point that holds its row: point `row div 1024`. -/
theorem cover (i : S131072x1024.Idx) :
    ∃ t : Fin cfg0.N, (cfg0.win 4).flush t = true ∧ i ∈ ((cfg0.win 4).blk t).view.set := by
  have hi0 : (i 0).val < 131072 := (i 0).isLt
  have hi1 : (i 1).val < 1024 := (i 1).isLt
  have hN : cfg0.N = 128 := N_0
  refine ⟨⟨(i 0).val / 1024, by rw [hN]; omega⟩, flush0_4 _, ?_⟩
  rw [mem_blk]
  obtain ⟨-, -, -, -, -, -, -, -, a40, a41⟩ := idx_facts ⟨(i 0).val / 1024, by rw [hN]; omega⟩
  intro a
  match a with
  | ⟨0, _⟩ =>
    show win0_4.index _ (0 : Fin 2) * 1024 ≤ (i 0).val ∧ (i 0).val < win0_4.index _ (0 : Fin 2) * 1024 + 1024
    rw [a40]
    show (i 0).val / 1024 * 1024 ≤ (i 0).val ∧ (i 0).val < (i 0).val / 1024 * 1024 + 1024
    omega
  | ⟨1, _⟩ =>
    show win0_4.index _ (1 : Fin 2) * 1024 ≤ (i 1).val ∧ (i 1).val < win0_4.index _ (1 : Fin 2) * 1024 + 1024
    rw [a41]; omega

/-- THE ARRAY after the run is the result array. -/
theorem final (c : Dev nD) : (dats m 0 c).arrAt 4 cfg0.N = result m c :=
  (dats m 0 c).arrAt_eq_of_cover 4 (result m c) (fun t _ => flushed_eq m c t) cover

/-- The kernel's run: the result buffer ends holding the result array, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrValue

end
-- ==== Proof.lean ====
/- Attention inside groups of eight consecutive rows: the kernel against its reference, on the extended reals.

   Both programs take an input `X` of 131072 rows and 1024 columns and three weight matrices, and compute, for every group
   of eight consecutive rows, the queries `X Wq`, keys `X Wk` and values `X Wv` of the group's rows, the 8 × 8 scores
   (query times key), each row of scores shifted by its maximum, exponentiated and normalised by the sum of its
   exponentials, and the eight result rows as those weights times the value rows (`Attn.attn`, `Attn.G`).

   The reference does this on the whole arrays, viewing the 131072 rows as 16384 groups (`RefValue.result_eq`). The kernel
   does it block by block: grid point `t` holds rows `1024 t … 1024 t + 1023`, 128 whole groups, so the block it stores is
   the same function of its rows (`KerValue.kout_at`), and the 128 blocks tile the result (`ArrValue.run`). The kernel
   rounds its operands to a narrower float format before each product; on the extended reals that changes nothing. The two
   programs apply the same operations in the same order to the same entries, so no algebraic law and no finiteness of the
   inputs is needed: a maximum taken from minus infinity is the supremum of the row on both sides, a sum from zero is the
   sum, and a product into a zero accumulator is the plain sum of products.

   The three frames are the generated ones (the reference's is its generated run with the result forgotten); the kernel's
   idealization rewrote no operation, so `preserves` has nothing to state. -/
import proofs.«173749_j8546984919496_1_alg».proof.Defs
import proofs.«173749_j8546984919496_1_alg».proof.Proof.Gen.Kernel
import proofs.«173749_j8546984919496_1_alg».proof.Proof.Gen.Kernel.Frame
import proofs.«173749_j8546984919496_1_alg».proof.Proof.Gen.KernelIdeal
import proofs.«173749_j8546984919496_1_alg».proof.Proof.Gen.KernelIdeal.Frame
import proofs.«173749_j8546984919496_1_alg».proof.Proof.Gen.KernelIdeal.Value
import proofs.«173749_j8546984919496_1_alg».proof.Proof.Gen.ReferenceIdeal
import proofs.«173749_j8546984919496_1_alg».proof.Proof.Gen.ReferenceIdeal.Run
import proofs.«173749_j8546984919496_1_alg».proof.Proof.Gen.ReferenceIdeal.Read
import proofs.«173749_j8546984919496_1_alg».proof.Proof.Gen.Pre_finite_inputs
import proofs.«173749_j8546984919496_1_alg».proof.Proof.RefValue
import proofs.«173749_j8546984919496_1_alg».proof.Proof.KerArray
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the four arguments, the kernel's result buffer ends holding `Attn.G` of the arguments
    (the blocks tile it), and the reference's result is the same array (its stages are the attention's, group by group). -/
theorem algebraic : Cert.algebraic_KernelIdeal_ReferenceIdeal := by
  intro m ρ m' ρ' _ hagree
  refine ⟨fun c => Cert.KernelIdeal.ArrValue.result m c, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v19_eq _ _ _ _).trans (Cert.ReferenceIdeal.RefValue.result_eq _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
